-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S2000x128 : Shape := ⟨2, ![2000, 128]⟩
abbrev S1600000x128 : Shape := ⟨2, ![1600000, 128]⟩
abbrev S100000x1 : Shape := ⟨2, ![100000, 1]⟩
abbrev S1x128 : Shape := ⟨2, ![1, 128]⟩
abbrev S2000x1 : Shape := ⟨2, ![2000, 1]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 80
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S1x128, .f32⟩
  | .hbm, ⟨59, _⟩ => ⟨S100000x128, .f32⟩
  | .hbm, ⟨60, _⟩ => ⟨S100000x64, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x64, .f32⟩
  | .hbm, ⟨70, _⟩ => ⟨S1600000x1, .f32⟩
  | .hbm, ⟨71, _⟩ => ⟨S1600000x64, .f32⟩
  | .hbm, ⟨72, _⟩ => ⟨S1600000x64, .f32⟩
  | .hbm, ⟨73, _⟩ => ⟨S_, .f32⟩
  | .hbm, ⟨74, _⟩ => ⟨S100000x64, .f32⟩
  | .hbm, ⟨75, _⟩ => ⟨S1600000x1, .i32⟩
  | .hbm, ⟨76, _⟩ => ⟨S100000x64, .f32⟩
  | .hbm, ⟨77, _⟩ => ⟨S100000x1, .f32⟩
  | .hbm, ⟨78, _⟩ => ⟨S1x64, .f32⟩
  | .hbm, ⟨79, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x64, .f32⟩
  | .local _ .vmem, ⟨17, _⟩ => ⟨S2000x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x1, .f32⟩
  | .local _ .vmem, ⟨24, _⟩ => ⟨S2000x1, .f32⟩
  | .local _ .vmem, ⟨25, _⟩ => ⟨S1x64, .f32⟩
  | .local _ .vmem, ⟨26, _⟩ => ⟨S2000x64, .f32⟩
  | .local _ .vmem, ⟨27, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  shapeCasts_S128_S1x128 : S128.ShapeCasts S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S100000x1.size a
  hwx1_2 : ∀ i : grid1.Coords, EltTy.bits .f32 = 32 ∨ (Rect.block (s := S100000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S100000x64.size a
  hwx3_1 : ∀ i : grid3.Coords, EltTy.bits .f32 = 32 ∨ (Rect.block (s := S100000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S100000x1.size a
  hwx3_2 : ∀ i : grid3.Coords, EltTy.bits .f32 = 32 ∨ (Rect.block (s := S100000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S100000x64.size a
  hwx3_4 : ∀ i : grid3.Coords, EltTy.bits .f32 = 32 ∨ (Rect.block (s := S100000x64) S2000x64.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v58) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000, .f32⟩
  | .hbm, ⟨38, _⟩ => ⟨S1600000, .f32⟩
  | .hbm, ⟨39, _⟩ => ⟨S100000, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S1600000x1, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S100000x128, .f32⟩
  | .hbm, ⟨55, _⟩ => ⟨S1600000x1, .i32⟩
  | .hbm, ⟨56, _⟩ => ⟨S100000x128, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x64, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x64, .f32⟩
  | .hbm, ⟨77, _⟩ => ⟨S1600000x1, .f32⟩
  | .hbm, ⟨78, _⟩ => ⟨S1600000x64, .f32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S100000x1, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S1x64, .f32⟩
  | .hbm, ⟨89, _⟩ => ⟨S100000x64, .f32⟩
  | .hbm, ⟨90, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_c_8 : Ref sig .tc := ⟨.hbm, 68, rfl⟩
abbrev main_v50 : Ref sig .tc := ⟨.hbm, 69, rfl⟩
abbrev main_v51 : Ref sig .tc := ⟨.hbm, 70, rfl⟩
abbrev main_c_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_10 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KernelRun.lean ====
/-
  The idealized kernel's run with its RESULT kept in the post. The run is the launch over @main's seven segments —
  three stretches of host operations and four regions — and it ends with every unscoped buffer at the last
  boundary's contents `W7`. The frame claim reads only the six argument buffers out of that state; read the result
  buffer as well and the same run says what the program returns: `W7` at the result's reference, which is the array
  the last region's write-backs leave.
-/
import proofs.«133299_j56856777064619_1_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the six arguments as launched. -/
theorem run : θ_run defs (onTc (τ := τ) (main (F := F))) ⟨m, fun _ => 0, ρ⟩ (fun r => ∀ c : Dev nD,
      r.2.mem ((c.tc : Thread nD τ).loc main_v60) = W7 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v60 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.KernelRun

end
-- ==== Proof.BoundaryEdges.lean ====
/-
  The kernel's run, boundary by boundary, against the reference's stages: the first host stretch. Before the first
  region both programs do the same thing to the edge list: split it into the source and the destination node of each
  edge, count the in-degree of every node (a scatter of ones) and add the self-loop, take the inverse square root,
  and gather it at both ends of each edge — the edge weights — and square it — the self-loop weights. So when the
  first region is entered the four buffers that later stretches read hold the reference's stages of the edge list,
  and the float arguments are as launched.
-/
import proofs.«133299_j56856777064619_1_alg».proof.Proof.Gen.KernelIdeal.Frame
import proofs.«133299_j56856777064619_1_alg».proof.Proof.Gen.ReferenceIdeal.Read
import Idealize.ShloMosaic.Lib.StableHlo.Run

set_option maxRecDepth 16384
-- the notations for the launch arrays mention the section's variables
set_option quotPrecheck false

noncomputable section

namespace Cert.KernelIdeal.Boundaries

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)

/-- The source node of each edge. -/
theorem src_eq : W1 m ρ c (Proc.devRef .tc main_v1) = val_main_v1 (F := Ideal) x₁ := by
  show StableHlo.after hostOps0 (W0 m ρ c) (Proc.devRef .tc main_v1) = _
  after_results_simp
  rfl

/-- The destination node of each edge. -/
theorem dst_eq : W1 m ρ c (Proc.devRef .tc main_v3) = val_main_v3 (F := Ideal) x₁ := by
  show StableHlo.after hostOps0 (W0 m ρ c) (Proc.devRef .tc main_v3) = _
  after_results_simp
  rfl

set_option maxHeartbeats 4000000 in
/-- The weight of each edge: the inverse square roots of the degrees at its two ends, multiplied. -/
theorem edgeWeight_eq : W1 m ρ c (Proc.devRef .tc main_v25) = val_main_v25 (F := Ideal) x₁ := by
  show StableHlo.after hostOps0 (W0 m ρ c) (Proc.devRef .tc main_v25) = _
  after_results_simp
  rfl

set_option maxHeartbeats 4000000 in
/-- The self-loop weight of each node: the inverse square root of its degree, squared. -/
theorem selfWeight_eq : W1 m ρ c (Proc.devRef .tc main_v26) = val_main_v26 (F := Ideal) x₁ := by
  show StableHlo.after hostOps0 (W0 m ρ c) (Proc.devRef .tc main_v26) = _
  after_results_simp
  rfl

/-- The float arguments are not written by the stretch. -/
theorem entry_arg0 : W1 m ρ c (Proc.devRef .tc main_arg0) = x₀ := by
  show StableHlo.after hostOps0 (W0 m ρ c) (Proc.devRef .tc main_arg0) = _
  after_results_simp
theorem entry_arg2 : W1 m ρ c (Proc.devRef .tc main_arg2) = x₂ := by
  show StableHlo.after hostOps0 (W0 m ρ c) (Proc.devRef .tc main_arg2) = _
  after_results_simp
theorem entry_arg3 : W1 m ρ c (Proc.devRef .tc main_arg3) = x₃ := by
  show StableHlo.after hostOps0 (W0 m ρ c) (Proc.devRef .tc main_arg3) = _
  after_results_simp
theorem entry_arg4 : W1 m ρ c (Proc.devRef .tc main_arg4) = x₄ := by
  show StableHlo.after hostOps0 (W0 m ρ c) (Proc.devRef .tc main_arg4) = _
  after_results_simp
theorem entry_arg5 : W1 m ρ c (Proc.devRef .tc main_arg5) = x₅ := by
  show StableHlo.after hostOps0 (W0 m ρ c) (Proc.devRef .tc main_arg5) = _
  after_results_simp

end Cert.KernelIdeal.Boundaries

end
-- ==== Proof.LibRowCols.lean ====
/-
  A product of two rank-2 arrays with the left operand's SECOND axis against the right operand's FIRST axis,
  `[A, K] × [K, B] → [A, B]` — every row of the left operand against every column of the right one, as a plain
  `tpu.matmul` into the zero accumulator computes it —, read at `(i, c)` at the ideal values (floats are extended
  reals): the sum over `k` of `l (i, k) * r (k, c)`. Stated for any extents, with every index written by coordinates.
-/
import Idealize.ShloMosaic.PureOps.Ideal
import Idealize.ShloMosaic.PureOps.Ideal.Laws
import Idealize.ShloMosaic.Lib.ValueIdx

noncomputable section

open scoped BigOperators

namespace Idealize.ShloMosaic.RowCols

open Idealize.ShloMosaic Idealize.ShloMosaic.ValueIdx

/-- A rank-2 index whose coordinates have the values of `a` and `b` is `ix2 a b`. -/
theorem idx2_of_vals {n0 n1 : Nat} (j : (⟨2, ![n0, n1]⟩ : Shape).Idx) (a : Fin n0) (b : Fin n1)
    (h0 : (j 0).val = a.val) (h1 : (j 1).val = b.val) : j = ix2 a b :=
  funext fun c => Fin.ext (by match c with | ⟨0, _⟩ => exact h0 | ⟨1, _⟩ => exact h1)

/-- The dimension numbers of `[A, K] × [K, B] → [A, B]`: the left operand's axis 1 contracted with the right
    operand's axis 0, no batch axis. -/
abbrev colsDims {A K B : Nat}
    (wf : DotDims.WF (⟨2, ![A, K]⟩ : Shape) ⟨2, ![K, B]⟩ ⟨2, ![A, B]⟩ [1] [0] [0] [1] [] []) :
    DotDims (⟨2, ![A, K]⟩ : Shape) ⟨2, ![K, B]⟩ ⟨2, ![A, B]⟩ :=
  ⟨[1], [0], [0], [1], [], [], wf⟩

/-- Off the contracted axis the left operand's index is the result's row. -/
theorem cols_lhs0 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).lhsIdx j q 0).val = (j 0).val := by
  unfold DotDims.lhsIdx
  rw [dif_neg (show ¬(0 : Fin 2) ∈ ([] : List (Fin 2)) from List.not_mem_nil),
    dif_pos (show (0 : Fin 2) ∈ ([0] : List (Fin 2)) from List.mem_singleton.mpr rfl)]
  rfl

/-- Off the contracted axis the right operand's index is the result's column. -/
theorem cols_rhs1 {A K B : Nat} (wf : DotDims.WF (⟨2, ![A, K]⟩ : Shape) ⟨2, ![K, B]⟩ ⟨2, ![A, B]⟩ [1] [0] [0] [1] [] [])
    (j : (⟨2, ![A, B]⟩ : Shape).Idx) (q : (colsDims wf).contr.Idx) :
    ((colsDims wf).rhsIdx j q 1).val = (j 1).val := by
  unfold DotDims.rhsIdx
  rw [dif_neg (show ¬(1 : Fin 2) ∈ ([] : List (Fin 2)) from List.not_mem_nil),
    dif_pos (show (1 : Fin 2) ∈ ([1] : List (Fin 2)) from List.mem_singleton.mpr rfl)]
  rfl

/-- The contraction sum of a rows-against-columns product, re-indexed by the contracted coordinate: at `j = (i, c)`
    the left operand is read along its row `i`, the right one along its column `c`. -/
theorem colsDot_sum {A K B : Nat} (d : DotDims (⟨2, ![A, K]⟩ : Shape) ⟨2, ![K, B]⟩ ⟨2, ![A, B]⟩)
    (hd : ∃ wf, d = colsDims wf)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  obtain ⟨wf, rfl⟩ := hd
  rw [← Equiv.sum_comp (contrEquiv1 (colsDims wf) K rfl rfl).symm]
  refine Finset.sum_congr rfl fun k _ => ?_
  have hk := contrEquiv1_symm_val (colsDims wf) K rfl rfl k
  have el : (colsDims wf).lhsIdx j ((contrEquiv1 (colsDims wf) K rfl rfl).symm k) = ix2 (j 0) k :=
    idx2_of_vals _ _ _ (cols_lhs0 wf j _) (((colsDims wf).lhsIdx_val_of_single (cl := 1) rfl j _).trans hk)
  have er : (colsDims wf).rhsIdx j ((contrEquiv1 (colsDims wf) K rfl rfl).symm k) = ix2 k (j 1) :=
    idx2_of_vals _ _ _ (((colsDims wf).rhsIdx_val_of_single (cr := 0) rfl j _).trans hk) (cols_rhs1 wf j _)
  rw [el, er]
  rfl

/-- A `tpu.matmul` of rows against columns into the zero accumulator, read at `(i, c)`: the sum over `k` of
    `l (i, k) * r (k, c)`. -/
theorem matmul_zero_cols_apply {A K B : Nat} {φ₁ φ₂ : FTy} (d : DotDims (⟨2, ![A, K]⟩ : Shape) ⟨2, ![K, B]⟩ ⟨2, ![A, B]⟩)
    (hd : ∃ wf, d = colsDims wf) (prec : Option ContractPrecision)
    (l : FVec Ideal (⟨2, ![A, K]⟩ : Shape) φ₁) (r : FVec Ideal (⟨2, ![K, B]⟩ : Shape) φ₂) (i : Fin A) (c : Fin B) :
    FloatOps.matmul d prec l r (constant (⟨2, ![A, B]⟩ : Shape) .f32 0x00000000#32) (ix2 i c)
      = ∑ k : Fin K, l (ix2 i k) * r (ix2 k c) := by
  rw [Ideal.matmul_constant_zero_apply]
  exact colsDot_sum d hd l r (ix2 i c)

end Idealize.ShloMosaic.RowCols

end
-- ==== Proof.LibColumns.lean ====
/-
  Column forms of the layout reads, at indices given by coordinates: a vector seen as a one-column matrix
  ([a] → [a, 1], what a row reduction with the axis kept produces), a one-column matrix seen as a vector again
  ([a, 1] → [a]) or as a one-row matrix ([a, 1] → [1, a]), and a one-column matrix repeated along the rows
  ([a, 1] → [a, b]). Each is the general read of the operation (a shape cast keeps the row-major position, a
  broadcast reads 0 on a unit axis) at these two shapes, with both indices written by coordinates.
-/
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`:
the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array cast to `[1, a]` reads, at `(u, i)`, the operand at `(i, 0)`: both positions are `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Bodies.lean ====
/-
  The four kernel bodies at the ideal values (floats are extended reals, a change of float format is the identity),
  each read at a pair of coordinates `(p, q)` of its output tile.

  * The two linear bodies round both operands to bf16 — the identity here — and multiply the tile of rows by the
    whole weight matrix into a zero accumulator: entry `(p, q)` is the sum over `k` of `x (p, k) * w (k, q)`.
  * The two combine bodies form `agg + h * s + b`, the one-column operand `s` repeated along each row and the
    one-row operand `b` repeated down each column; the first one then takes the maximum with zero.
-/
import proofs.«133299_j56856777064619_1_alg».proof.Proof.Gen.KernelIdeal.Skeleton
import proofs.«133299_j56856777064619_1_alg».proof.Proof.LibRowCols
import proofs.«133299_j56856777064619_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Bodies

open Idealize.ShloMosaic Idealize.ShloMosaic.ValueIdx Cert.KernelIdeal Cert.KernelIdeal.Gen

/-- The first linear body at `(p, q)`: row `p` of the tile against column `q` of the 128 × 128 weight. -/
theorem linear128_apply (x : Vec Ideal S2000x128 .f32) (w : Vec Ideal S128x128 .f32) (p : Fin 2000) (q : Fin 128) :
    k0_pay1 x w (ix2 p q) = ∑ k : Fin 128, x (ix2 p k) * w (ix2 k q) := by
  unfold k0_pay1
  exact RowCols.matmul_zero_cols_apply dot_S2000x128_S128x128_S2000x128_1_0_0_1_n_n ⟨_, rfl⟩ none
    (truncf .bf16 x bitsLt_bf16_f32) (truncf .bf16 w bitsLt_bf16_f32) p q

/-- The second linear body at `(p, q)`: row `p` of the tile against column `q` of the 128 × 64 weight. -/
theorem linear64_apply (x : Vec Ideal S2000x128 .f32) (w : Vec Ideal S128x64 .f32) (p : Fin 2000) (q : Fin 64) :
    k2_pay1 x w (ix2 p q) = ∑ k : Fin 128, x (ix2 p k) * w (ix2 k q) := by
  unfold k2_pay1
  rw [shapeCast_self]
  exact RowCols.matmul_zero_cols_apply dot_S2000x128_S128x64_S2000x64_1_0_0_1_n_n ⟨_, rfl⟩ none
    (truncf .bf16 x bitsLt_bf16_f32) (truncf .bf16 w bitsLt_bf16_f32) p q

/-- The first combine body at `(p, q)`: `max (agg + h * s + b) 0`, `s` read in row `p` of its one column, `b` in
    column `q` of its one row. -/
theorem combineRelu_apply (a h : Vec Ideal S2000x128 .f32) (s : Vec Ideal S2000x1 .f32) (b : Vec Ideal S1x128 .f32)
    (p : Fin 2000) (q : Fin 128) :
    k1_pay1 a h s b (ix2 p q)
      = max (a (ix2 p q) + h (ix2 p q) * s (ix2 p (0 : Fin 1)) + b (ix2 (0 : Fin 1) q)) (Ideal.ofBits .f32 0x00000000#32) := by
  unfold k1_pay1
  rw [shapeCast_self, shapeCast_self, shapeCast_self, shapeCast_self]
  show max (a (ix2 p q) + h (ix2 p q) * broadcastTo S2000x128 s broadcasts_S2000x1_S2000x128 (ix2 p q)
      + broadcastTo S2000x128 b broadcasts_S1x128_S2000x128 (ix2 p q)) (Ideal.ofBits .f32 0x00000000#32) = _
  rw [broadcastTo_a1_ab_apply, broadcastTo_1b_ab_apply]

/-- The second combine body at `(p, q)`: `agg + h * s + b`, read as in the first. -/
theorem combine_apply (a h : Vec Ideal S2000x64 .f32) (s : Vec Ideal S2000x1 .f32) (b : Vec Ideal S1x64 .f32)
    (p : Fin 2000) (q : Fin 64) :
    k3_pay1 a h s b (ix2 p q) = a (ix2 p q) + h (ix2 p q) * s (ix2 p (0 : Fin 1)) + b (ix2 (0 : Fin 1) q) := by
  unfold k3_pay1
  rw [shapeCast_self, shapeCast_self, shapeCast_self, shapeCast_self]
  show a (ix2 p q) + h (ix2 p q) * broadcastTo S2000x64 s broadcasts_S2000x1_S2000x64 (ix2 p q)
      + broadcastTo S2000x64 b broadcasts_S1x64_S2000x64 (ix2 p q) = _
  rw [broadcastTo_a1_ab_apply, broadcastTo_1b_ab_apply]

end Cert.KernelIdeal.Bodies

end
-- ==== Proof.Layers.lean ====
/-
  One graph-convolution layer as two whole-array stages over the extended reals, index by index.

  * The dense stage: every row of the node features against every column of the weight,
    `(x · w) (n, j) = ∑ k, x (n, k) * w (k, j)`.
  * The combine stage: the aggregated messages plus the node's own transformed row scaled by its self-loop weight,
    plus the bias, `agg (n, j) + h (n, j) * s (n, 0) + b (0, j)` — `s` kept as a one-column matrix, `b` as a
    one-row matrix. After the first layer the result is clamped at zero.

  Both are stated for the literal extents of this network: 100000 nodes, 128 input and hidden features, 64 outputs.
-/
import Idealize.ShloMosaic.PureOps.Ideal
import Idealize.ShloMosaic.Lib.ValueIdx

noncomputable section

open scoped BigOperators

namespace Cert.Layers

open Idealize.ShloMosaic Idealize.ShloMosaic.ValueIdx

/-- The first dense stage: 100000 rows of 128 features against a 128 × 128 weight. -/
def dense128 (x : (⟨2, ![100000, 128]⟩ : Shape).Idx → EReal) (w : (⟨2, ![128, 128]⟩ : Shape).Idx → EReal) :
    (⟨2, ![100000, 128]⟩ : Shape).Idx → EReal :=
  fun i => ∑ k : Fin 128, x (ix2 (i 0) k) * w (ix2 k (i 1))

/-- The second dense stage: 100000 rows of 128 features against a 128 × 64 weight. -/
def dense64 (x : (⟨2, ![100000, 128]⟩ : Shape).Idx → EReal) (w : (⟨2, ![128, 64]⟩ : Shape).Idx → EReal) :
    (⟨2, ![100000, 64]⟩ : Shape).Idx → EReal :=
  fun i => ∑ k : Fin 128, x (ix2 (i 0) k) * w (ix2 k (i 1))

/-- The first combine stage, clamped at zero (the zero is the f32 word of all zero bits). -/
def combineClamped (agg h : (⟨2, ![100000, 128]⟩ : Shape).Idx → EReal) (s : (⟨2, ![100000, 1]⟩ : Shape).Idx → EReal)
    (b : (⟨2, ![1, 128]⟩ : Shape).Idx → EReal) : (⟨2, ![100000, 128]⟩ : Shape).Idx → EReal :=
  fun i => max (agg i + h i * s (ix2 (i 0) (0 : Fin 1)) + b (ix2 (0 : Fin 1) (i 1))) (Ideal.ofBits .f32 0x00000000#32)

/-- The second combine stage, not clamped. -/
def combine (agg h : (⟨2, ![100000, 64]⟩ : Shape).Idx → EReal) (s : (⟨2, ![100000, 1]⟩ : Shape).Idx → EReal)
    (b : (⟨2, ![1, 64]⟩ : Shape).Idx → EReal) : (⟨2, ![100000, 64]⟩ : Shape).Idx → EReal :=
  fun i => agg i + h i * s (ix2 (i 0) (0 : Fin 1)) + b (ix2 (0 : Fin 1) (i 1))

/-- The clamped combine stage at coordinates `(n, j)`. -/
theorem combineClamped_apply (agg h : (⟨2, ![100000, 128]⟩ : Shape).Idx → EReal) (s : (⟨2, ![100000, 1]⟩ : Shape).Idx → EReal)
    (b : (⟨2, ![1, 128]⟩ : Shape).Idx → EReal) (n : Fin 100000) (j : Fin 128) :
    combineClamped agg h s b (ix2 n j)
      = max (agg (ix2 n j) + h (ix2 n j) * s (ix2 n (0 : Fin 1)) + b (ix2 (0 : Fin 1) j)) (Ideal.ofBits .f32 0x00000000#32) := rfl

/-- The combine stage at coordinates `(n, j)`. -/
theorem combine_apply (agg h : (⟨2, ![100000, 64]⟩ : Shape).Idx → EReal) (s : (⟨2, ![100000, 1]⟩ : Shape).Idx → EReal)
    (b : (⟨2, ![1, 64]⟩ : Shape).Idx → EReal) (n : Fin 100000) (j : Fin 64) :
    combine agg h s b (ix2 n j) = agg (ix2 n j) + h (ix2 n j) * s (ix2 n (0 : Fin 1)) + b (ix2 (0 : Fin 1) j) := rfl

end Cert.Layers

end
-- ==== Proof.DenseTiles128.lean ====
/-
  The first dense region, tile by tile. Its grid has 50 points; point `t` reads rows `2000 t … 2000 t + 1999` of the
  node features and the whole 128 × 128 weight, and writes the same rows of the result. What point `t` writes is that
  block of the whole-array dense stage (`Layers.dense128`) of the two arrays as the region finds them: row `p` of the
  tile is row `2000 t + p` of the array, and the weight's one block is the weight. The 50 blocks of rows cover the
  result, so after the region the result array IS the dense stage of the entry contents.
-/
import proofs.«133299_j56856777064619_1_alg».proof.Proof.Gen.KernelIdeal.Frame
import proofs.«133299_j56856777064619_1_alg».proof.Proof.Bodies
import proofs.«133299_j56856777064619_1_alg».proof.Proof.Layers
import Idealize.ShloMosaic.Lib.Pipeline.Value

set_option maxRecDepth 16384

noncomputable section

open scoped BigOperators

namespace Cert.KernelIdeal.DenseTiles128

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices of the three windows at point `t`: rows move with the point, columns do not move, the weight
    is one block. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the dense stage of the arrays as the region finds them. -/
theorem written_eq (c : Dev nD) (t : Fin cfg0.N) :
    (dat0 V c).flushed 2 t
      = ((cfg0.win 2).blk t).view.read (Elt Ideal) (Layers.dense128 (V c main_arg0) (V c main_arg2)) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  obtain ⟨e0, e1, e2, e3, e4, e5⟩ := blockIndex t
  funext j
  obtain ⟨p, q, rfl⟩ : ∃ (p : Fin 2000) (q : Fin 128), j = ix2 p q := ⟨j 0, j 1, eq_ix2 j⟩
  show k0_pay1 (iblk0 V c 0 t) (iblk0 V c 1 t) (ix2 p q)
    = Layers.dense128 (V c main_arg0) (V c main_arg2) (((cfg0.win 2).blk t).view.emb (ix2 p q))
  refine (Bodies.linear128_apply (iblk0 V c 0 t) (iblk0 V c 1 t) p q).trans ?_
  unfold Layers.dense128
  refine Finset.sum_congr rfl fun k _ => ?_
  have hx : iblk0 V c 0 t (ix2 p k)
      = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  have hw : iblk0 V c 1 t (ix2 k q)
      = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega
  rw [hx, hw]

/-- An index of the result is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v27).slice (win0_2.rect t)).set ↔ _
  rw [View.set_slice_whole, Rect.mem_set_unit]
  exact Iff.rfl

/-- Every block of rows is some point's. -/
theorem block_onto : ∀ r : Fin 50, ∃ t : Fin cfg0.N, win0_2.index t (0 : Fin 2) = r.val ∧ win0_2.index t (1 : Fin 2) = 0 :=
  (by decide +kernel : ∀ r : Fin 50, ∃ t : Fin grid0.N, win0_2.index t (0 : Fin 2) = r.val ∧ win0_2.index t (1 : Fin 2) = 0)

/-- The blocks cover the result: row `n` is in the block of point `n / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := block_onto ⟨(i 0).val / 2000, by omega⟩
  have q0' : win0_2.index t (0 : Fin 2) = (i 0).val / 2000 := q0
  refine ⟨t, flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- After the region the result array is the dense stage of the feature and weight arrays as the region found them. -/
theorem result_eq (c : Dev nD) :
    (dat0 V c).arrAt 2 cfg0.N = Layers.dense128 (V c main_arg0) (V c main_arg2) :=
  (dat0 V c).arrAt_eq_of_cover 2 _ (fun t _ => written_eq V c t) covered

end Cert.KernelIdeal.DenseTiles128

end
-- ==== Proof.CombineTiles128.lean ====
/-
  The first combine region, tile by tile. Its grid has 50 points; point `t` reads rows `2000 t … 2000 t + 1999` of
  the aggregated messages, of the transformed features and of the one-column self-loop weights, and the whole
  one-row bias, and writes the same rows of the result. What point `t` writes is that block of the whole-array
  combine stage clamped at zero (`Layers.combineClamped`) of the four arrays as the region finds them: entry `(p, q)`
  of the tile is entry `(2000 t + p, q)` of the arrays, the self-loop weight is read in row `2000 t + p` of its one
  column and the bias in column `q` of its one row. The 50 blocks of rows cover the result.
-/
import proofs.«133299_j56856777064619_1_alg».proof.Proof.Gen.KernelIdeal.Frame
import proofs.«133299_j56856777064619_1_alg».proof.Proof.Bodies
import proofs.«133299_j56856777064619_1_alg».proof.Proof.Layers
import Idealize.ShloMosaic.Lib.Pipeline.Value

set_option maxRecDepth 16384

noncomputable section

open scoped BigOperators

namespace Cert.KernelIdeal.CombineTiles128

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices of the five windows at point `t`: rows move with the point, columns do not move, the bias is
    one block. -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the clamped combine stage of the arrays as the region finds them. -/
theorem written_eq (c : Dev nD) (t : Fin cfg1.N) :
    (dat1 V c).flushed 4 t
      = ((cfg1.win 4).blk t).view.read (Elt Ideal)
          (Layers.combineClamped (V c main_v40) (V c main_v27) (V c main_v41) (V c main_v42)) := by
  show (cfg1.win 4).cut (grid1.coords t) ((dat1 V c).after 4 t) = _
  rw [after1_4]
  unfold out1_4
  rw [View.canon_unit_zero origin]
  simp only [View.ld_unit_zero (S := S2000x128) origin, View.ld_unit_zero (S := S2000x1) origin,
    View.ld_unit_zero (S := S1x128) origin]
  obtain ⟨e0, e1, e2, e3, e4, e5, e6, e7, e8, e9⟩ := blockIndex t
  funext j
  obtain ⟨p, q, rfl⟩ : ∃ (p : Fin 2000) (q : Fin 128), j = ix2 p q := ⟨j 0, j 1, eq_ix2 j⟩
  show k1_pay1 (iblk1 V c 0 t) (iblk1 V c 1 t) (iblk1 V c 2 t) (iblk1 V c 3 t) (ix2 p q)
    = Layers.combineClamped (V c main_v40) (V c main_v27) (V c main_v41) (V c main_v42)
        (((cfg1.win 4).blk t).view.emb (ix2 p q))
  refine (Bodies.combineRelu_apply (iblk1 V c 0 t) (iblk1 V c 1 t) (iblk1 V c 2 t) (iblk1 V c 3 t) p q).trans ?_
  unfold Layers.combineClamped
  have ha : iblk1 V c 0 t (ix2 p q) = V c main_v40 (((cfg1.win 4).blk t).view.emb (ix2 p q)) := by
    show V c main_v40 (((cfg1.win 0).blk t).view.emb (ix2 p q)) = _
    refine congrArg (V c main_v40) (funext fun a => Fin.ext ?_)
    match a with
    | ⟨0, _⟩ =>
      show win1_0.index t (0 : Fin 2) * 2000 + 1 * p.val = win1_4.index t (0 : Fin 2) * 2000 + 1 * p.val
      omega
    | ⟨1, _⟩ =>
      show win1_0.index t (1 : Fin 2) * 128 + 1 * q.val = win1_4.index t (1 : Fin 2) * 128 + 1 * q.val
      omega
  have hh : iblk1 V c 1 t (ix2 p q) = V c main_v27 (((cfg1.win 4).blk t).view.emb (ix2 p q)) := by
    show V c main_v27 (((cfg1.win 1).blk t).view.emb (ix2 p q)) = _
    refine congrArg (V c main_v27) (funext fun a => Fin.ext ?_)
    match a with
    | ⟨0, _⟩ =>
      show win1_1.index t (0 : Fin 2) * 2000 + 1 * p.val = win1_4.index t (0 : Fin 2) * 2000 + 1 * p.val
      omega
    | ⟨1, _⟩ =>
      show win1_1.index t (1 : Fin 2) * 128 + 1 * q.val = win1_4.index t (1 : Fin 2) * 128 + 1 * q.val
      omega
  have hs : iblk1 V c 2 t (ix2 p (0 : Fin 1))
      = V c main_v41 (ix2 ((((cfg1.win 4).blk t).view.emb (ix2 p q)) 0) (0 : Fin 1)) := by
    show V c main_v41 (((cfg1.win 2).blk t).view.emb (ix2 p (0 : Fin 1))) = _
    refine congrArg (V c main_v41) (funext fun a => Fin.ext ?_)
    match a with
    | ⟨0, _⟩ =>
      show win1_2.index t (0 : Fin 2) * 2000 + 1 * p.val = win1_4.index t (0 : Fin 2) * 2000 + 1 * p.val
      omega
    | ⟨1, _⟩ =>
      show win1_2.index t (1 : Fin 2) * 1 + 1 * 0 = 0
      omega
  have hb : iblk1 V c 3 t (ix2 (0 : Fin 1) q)
      = V c main_v42 (ix2 (0 : Fin 1) ((((cfg1.win 4).blk t).view.emb (ix2 p q)) 1)) := by
    show V c main_v42 (((cfg1.win 3).blk t).view.emb (ix2 (0 : Fin 1) q)) = _
    refine congrArg (V c main_v42) (funext fun a => Fin.ext ?_)
    match a with
    | ⟨0, _⟩ =>
      show win1_3.index t (0 : Fin 2) * 1 + 1 * 0 = 0
      omega
    | ⟨1, _⟩ =>
      show win1_3.index t (1 : Fin 2) * 128 + 1 * q.val = win1_4.index t (1 : Fin 2) * 128 + 1 * q.val
      omega
  rw [ha, hh, hs, hb]

/-- An index of the result is in point `t`'s block iff each coordinate is in the block's range on its axis. -/
theorem mem_block (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v43).slice (win1_4.rect t)).set ↔ _
  rw [View.set_slice_whole, Rect.mem_set_unit]
  exact Iff.rfl

/-- Every block of rows is some point's. -/
theorem block_onto : ∀ r : Fin 50, ∃ t : Fin cfg1.N, win1_4.index t (0 : Fin 2) = r.val ∧ win1_4.index t (1 : Fin 2) = 0 :=
  (by decide +kernel : ∀ r : Fin 50, ∃ t : Fin grid1.N, win1_4.index t (0 : Fin 2) = r.val ∧ win1_4.index t (1 : Fin 2) = 0)

/-- The blocks cover the result: row `n` is in the block of point `n / 2000`. -/
theorem covered (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, q0, q1⟩ := block_onto ⟨(i 0).val / 2000, by omega⟩
  have q0' : win1_4.index t (0 : Fin 2) = (i 0).val / 2000 := q0
  refine ⟨t, flush1_4 t, ?_⟩
  rw [mem_block]
  intro a
  match a with
  | ⟨0, _⟩ =>
    show win1_4.index t (0 : Fin 2) * 2000 ≤ (i 0).val ∧ (i 0).val < win1_4.index t (0 : Fin 2) * 2000 + 2000
    omega
  | ⟨1, _⟩ =>
    show win1_4.index t (1 : Fin 2) * 128 ≤ (i 1).val ∧ (i 1).val < win1_4.index t (1 : Fin 2) * 128 + 128
    omega

/-- After the region the result array is the clamped combine stage of the four arrays as the region found them. -/
theorem result_eq (c : Dev nD) :
    (dat1 V c).arrAt 4 cfg1.N
      = Layers.combineClamped (V c main_v40) (V c main_v27) (V c main_v41) (V c main_v42) :=
  (dat1 V c).arrAt_eq_of_cover 4 _ (fun t _ => written_eq V c t) covered

end Cert.KernelIdeal.CombineTiles128

end
-- ==== Proof.RefStages.lean ====
/-
  The reference's stages are the layer functions. Its two `dot_general`s contract the features' axis 1 with the
  weight's axis 0: the dense stages. Its combine steps repeat the self-loop weights and the bias in two broadcasts
  each — a vector to a one-column (one-row) matrix, then that across the columns (down the rows) — before the
  multiply and the two adds, and its relu is the maximum with a zero splat; read at `(n, j)` the self-loop weight is
  the vector's entry `n` and the bias the vector's entry `j`, which is also what the same vectors reshaped to one
  column and to one row give there.
-/
import proofs.«133299_j56856777064619_1_alg».proof.Proof.Gen.ReferenceIdeal.Read
import proofs.«133299_j56856777064619_1_alg».proof.Proof.Layers
import proofs.«133299_j56856777064619_1_alg».proof.Proof.LibColumns
import Idealize.ShloMosaic.Lib.ValueLayout

noncomputable section

open scoped BigOperators

namespace Cert.ReferenceIdeal.Stages

open Idealize.ShloMosaic Idealize.ShloMosaic.ValueIdx Cert.ReferenceIdeal Cert.ReferenceIdeal.Read

/-- The first `dot_general` is the first dense stage. -/
theorem dense128_eq (x0 : (⟨S100000x128, .f32⟩ : BufTy).Contents (Elt Ideal)) (x2 : (⟨S128x128, .f32⟩ : BufTy).Contents (Elt Ideal)) :
    val_main_v27 (F := Ideal) x0 x2 = Layers.dense128 x0 x2 := by
  funext i
  rw [val_main_v27_apply]
  unfold Layers.dense128
  refine Finset.sum_congr rfl fun k _ => ?_
  have el : lidx_main_v27 i k = ix2 (i 0) k :=
    funext fun a => Fin.ext (by match a with | ⟨0, _⟩ => rfl | ⟨1, _⟩ => rfl)
  have er : ridx_main_v27 i k = ix2 k (i 1) :=
    funext fun a => Fin.ext (by match a with | ⟨0, _⟩ => rfl | ⟨1, _⟩ => rfl)
  rw [el, er]
  rfl

/-- The second `dot_general` is the second dense stage of the first layer's result. -/
theorem dense64_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) :
    val_main_v49 (F := Ideal) x0 x1 x2 x3 x4 = Layers.dense64 (val_main_v48 (F := Ideal) x0 x1 x2 x3) x4 := by
  funext i
  rw [val_main_v49_apply]
  unfold Layers.dense64
  refine Finset.sum_congr rfl fun k _ => ?_
  have el : lidx_main_v49 i k = ix2 (i 0) k :=
    funext fun a => Fin.ext (by match a with | ⟨0, _⟩ => rfl | ⟨1, _⟩ => rfl)
  have er : ridx_main_v49 i k = ix2 k (i 1) :=
    funext fun a => Fin.ext (by match a with | ⟨0, _⟩ => rfl | ⟨1, _⟩ => rfl)
  rw [el, er]
  rfl

/-- The first layer's combine steps and relu are the clamped combine stage, of the aggregated messages, the
    transformed features, and the self-loop weights and the bias reshaped to one column and to one row. -/
theorem combineClamped_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (hs : S100000.ShapeCasts S100000x1) (hb : S128.ShapeCasts S1x128) :
    val_main_v48 (F := Ideal) x0 x1 x2 x3
      = Layers.combineClamped (val_main_v40 (F := Ideal) x0 x1 x2) (val_main_v27 (F := Ideal) x0 x2)
          (shapeCast S100000x1 (val_main_v26 (F := Ideal) x1) hs) (shapeCast S1x128 x3 hb) := by
  funext i
  obtain ⟨n, j, rfl⟩ : ∃ (n : Fin 100000) (j : Fin 128), i = ix2 n j := ⟨i 0, i 1, eq_ix2 i⟩
  rw [Layers.combineClamped_apply, shapeCast_a_a1_apply, shapeCast_a_1a_apply]
  rw [val_main_v48_apply, val_main_v47_apply, val_main_v44_apply, val_main_v43_apply, val_main_v42_apply,
    val_main_v41_apply, val_main_v46_apply, val_main_v45_apply, val_main_call0_v0_apply, val_main_call0_cst_apply]
  have e1 : idx_main_v41 (idx_main_v42 (ix2 n j)) = ix1 n :=
    funext fun a => Fin.ext (by match a with | ⟨0, _⟩ => rfl)
  have e2 : idx_main_v45 (idx_main_v46 (ix2 n j)) = ix1 j :=
    funext fun a => Fin.ext (by match a with | ⟨0, _⟩ => rfl)
  rw [e1, e2]
  rfl

/-- The second layer's combine steps are the combine stage, read the same way. -/
theorem combine_eq (x0 : (⟨S100000x128, .f32⟩ : BufTy).Contents (Elt Ideal)) (x1 : (⟨S2x1600000, .i32⟩ : BufTy).Contents (Elt Ideal))
    (x2 : (⟨S128x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (hs : S100000.ShapeCasts S100000x1) (hb : S64.ShapeCasts S1x64) :
    val_main_v69 (F := Ideal) x0 x1 x2 x3 x4 x5
      = Layers.combine (val_main_v62 (F := Ideal) x0 x1 x2 x3 x4) (val_main_v49 (F := Ideal) x0 x1 x2 x3 x4)
          (shapeCast S100000x1 (val_main_v26 (F := Ideal) x1) hs) (shapeCast S1x64 x5 hb) := by
  funext i
  obtain ⟨n, j, rfl⟩ : ∃ (n : Fin 100000) (j : Fin 64), i = ix2 n j := ⟨i 0, i 1, eq_ix2 i⟩
  rw [Layers.combine_apply, shapeCast_a_a1_apply, shapeCast_a_1a_apply]
  rw [val_main_v69_apply, val_main_v66_apply, val_main_v65_apply, val_main_v64_apply, val_main_v63_apply,
    val_main_v68_apply, val_main_v67_apply]
  have e1 : idx_main_v63 (idx_main_v64 (ix2 n j)) = ix1 n :=
    funext fun a => Fin.ext (by match a with | ⟨0, _⟩ => rfl)
  have e2 : idx_main_v67 (idx_main_v68 (ix2 n j)) = ix1 j :=
    funext fun a => Fin.ext (by match a with | ⟨0, _⟩ => rfl)
  rw [e1, e2]
  rfl

end Cert.ReferenceIdeal.Stages

end
-- ==== Proof.BoundaryLayer1.lean ====
/-
  The kernel's run, boundary by boundary, against the reference's stages: the first layer. The first dense region
  finds the features and the first weight as launched and leaves the dense stage of them — the reference's first
  `dot_general`. The stretch after it gathers the transformed rows at each edge's source, scales them by the edge
  weights and adds them up at each edge's destination, exactly the reference's operations on the same values, and
  reshapes the self-loop weights to one column and the bias to one row. The first combine region then leaves the
  clamped combine stage of those four arrays — the reference's multiply, two adds and relu. Buffers a segment does
  not write are carried through it unchanged.
-/
import proofs.«133299_j56856777064619_1_alg».proof.Proof.BoundaryEdges
import proofs.«133299_j56856777064619_1_alg».proof.Proof.DenseTiles128
import proofs.«133299_j56856777064619_1_alg».proof.Proof.CombineTiles128
import proofs.«133299_j56856777064619_1_alg».proof.Proof.RefStages

set_option maxRecDepth 16384
-- the notations for the launch arrays mention the section's variables
set_option quotPrecheck false

noncomputable section

namespace Cert.KernelIdeal.Boundaries

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)

/-! ## The first dense region -/

/-- After the first dense region its result buffer holds the reference's first `dot_general`. -/
theorem hidden1_eq : W2 m ρ c (Proc.devRef .tc main_v27) = val_main_v27 (F := Ideal) x₀ x₂ :=
  calc W2 m ρ c (Proc.devRef .tc main_v27)
    _ = (dat0 (V1 m ρ) c).arrAt 2 cfg0.N := W2_arr m ρ c 2
    _ = Layers.dense128 (W1 m ρ c (Proc.devRef .tc main_arg0)) (W1 m ρ c (Proc.devRef .tc main_arg2)) :=
        DenseTiles128.result_eq (V1 m ρ) c
    _ = Layers.dense128 x₀ x₂ := by rw [entry_arg0, entry_arg2]
    _ = val_main_v27 (F := Ideal) x₀ x₂ := (Cert.ReferenceIdeal.Stages.dense128_eq _ _).symm

theorem after0_src : W2 m ρ c (Proc.devRef .tc main_v1) = val_main_v1 (F := Ideal) x₁ :=
  (W2_of_ne m ρ c main_v1 (by decide)).trans (src_eq m ρ c)
theorem after0_dst : W2 m ρ c (Proc.devRef .tc main_v3) = val_main_v3 (F := Ideal) x₁ :=
  (W2_of_ne m ρ c main_v3 (by decide)).trans (dst_eq m ρ c)
theorem after0_edgeWeight : W2 m ρ c (Proc.devRef .tc main_v25) = val_main_v25 (F := Ideal) x₁ :=
  (W2_of_ne m ρ c main_v25 (by decide)).trans (edgeWeight_eq m ρ c)
theorem after0_selfWeight : W2 m ρ c (Proc.devRef .tc main_v26) = val_main_v26 (F := Ideal) x₁ :=
  (W2_of_ne m ρ c main_v26 (by decide)).trans (selfWeight_eq m ρ c)
theorem after0_arg3 : W2 m ρ c (Proc.devRef .tc main_arg3) = x₃ :=
  (W2_of_ne m ρ c main_arg3 (by decide)).trans (entry_arg3 m ρ c)
theorem after0_arg4 : W2 m ρ c (Proc.devRef .tc main_arg4) = x₄ :=
  (W2_of_ne m ρ c main_arg4 (by decide)).trans (entry_arg4 m ρ c)
theorem after0_arg5 : W2 m ρ c (Proc.devRef .tc main_arg5) = x₅ :=
  (W2_of_ne m ρ c main_arg5 (by decide)).trans (entry_arg5 m ρ c)

/-! ## The stretch between the first dense and the first combine region -/

set_option maxHeartbeats 4000000 in
/-- The messages added up at each destination node: the reference's gather, scaling and scatter of the same values. -/
theorem agg1_eq : W3 m ρ c (Proc.devRef .tc main_v40) = val_main_v40 (F := Ideal) x₀ x₁ x₂ := by
  show StableHlo.after hostOps1 (W2 m ρ c) (Proc.devRef .tc main_v40) = _
  after_results_simp
  rw [hidden1_eq m ρ c, after0_src m ρ c, after0_dst m ρ c, after0_edgeWeight m ρ c]
  rfl

theorem mid1_hidden1 : W3 m ρ c (Proc.devRef .tc main_v27) = val_main_v27 (F := Ideal) x₀ x₂ := by
  show StableHlo.after hostOps1 (W2 m ρ c) (Proc.devRef .tc main_v27) = _
  after_results_simp
  exact hidden1_eq m ρ c

/-- The self-loop weights as one column. -/
theorem mid1_selfColumn : W3 m ρ c (Proc.devRef .tc main_v41)
    = shapeCast S100000x1 (val_main_v26 (F := Ideal) x₁) shapeCasts_S100000_S100000x1 := by
  show StableHlo.after hostOps1 (W2 m ρ c) (Proc.devRef .tc main_v41) = _
  after_results_simp
  exact congrArg (fun v => shapeCast S100000x1 v shapeCasts_S100000_S100000x1) (after0_selfWeight m ρ c)

/-- The first bias as one row. -/
theorem mid1_biasRow : W3 m ρ c (Proc.devRef .tc main_v42) = shapeCast S1x128 x₃ shapeCasts_S128_S1x128 := by
  show StableHlo.after hostOps1 (W2 m ρ c) (Proc.devRef .tc main_v42) = _
  after_results_simp
  exact congrArg (fun v => shapeCast S1x128 v shapeCasts_S128_S1x128) (after0_arg3 m ρ c)

theorem mid1_src : W3 m ρ c (Proc.devRef .tc main_v1) = val_main_v1 (F := Ideal) x₁ := by
  show StableHlo.after hostOps1 (W2 m ρ c) (Proc.devRef .tc main_v1) = _
  after_results_simp
  exact after0_src m ρ c
theorem mid1_dst : W3 m ρ c (Proc.devRef .tc main_v3) = val_main_v3 (F := Ideal) x₁ := by
  show StableHlo.after hostOps1 (W2 m ρ c) (Proc.devRef .tc main_v3) = _
  after_results_simp
  exact after0_dst m ρ c
theorem mid1_edgeWeight : W3 m ρ c (Proc.devRef .tc main_v25) = val_main_v25 (F := Ideal) x₁ := by
  show StableHlo.after hostOps1 (W2 m ρ c) (Proc.devRef .tc main_v25) = _
  after_results_simp
  exact after0_edgeWeight m ρ c
theorem mid1_selfWeight : W3 m ρ c (Proc.devRef .tc main_v26) = val_main_v26 (F := Ideal) x₁ := by
  show StableHlo.after hostOps1 (W2 m ρ c) (Proc.devRef .tc main_v26) = _
  after_results_simp
  exact after0_selfWeight m ρ c
theorem mid1_arg4 : W3 m ρ c (Proc.devRef .tc main_arg4) = x₄ := by
  show StableHlo.after hostOps1 (W2 m ρ c) (Proc.devRef .tc main_arg4) = _
  after_results_simp
  exact after0_arg4 m ρ c
theorem mid1_arg5 : W3 m ρ c (Proc.devRef .tc main_arg5) = x₅ := by
  show StableHlo.after hostOps1 (W2 m ρ c) (Proc.devRef .tc main_arg5) = _
  after_results_simp
  exact after0_arg5 m ρ c

/-! ## The first combine region -/

/-- After the first combine region its result buffer holds the reference's first layer, relu included. -/
theorem layer1_eq : W4 m ρ c (Proc.devRef .tc main_v43) = val_main_v48 (F := Ideal) x₀ x₁ x₂ x₃ :=
  calc W4 m ρ c (Proc.devRef .tc main_v43)
    _ = (dat1 (V3 m ρ) c).arrAt 4 cfg1.N := W4_arr m ρ c 4
    _ = Layers.combineClamped (W3 m ρ c (Proc.devRef .tc main_v40)) (W3 m ρ c (Proc.devRef .tc main_v27))
          (W3 m ρ c (Proc.devRef .tc main_v41)) (W3 m ρ c (Proc.devRef .tc main_v42)) :=
        CombineTiles128.result_eq (V3 m ρ) c
    _ = Layers.combineClamped (val_main_v40 (F := Ideal) x₀ x₁ x₂) (val_main_v27 (F := Ideal) x₀ x₂)
          (shapeCast S100000x1 (val_main_v26 (F := Ideal) x₁) shapeCasts_S100000_S100000x1)
          (shapeCast S1x128 x₃ shapeCasts_S128_S1x128) := by
        rw [agg1_eq, mid1_hidden1, mid1_selfColumn, mid1_biasRow]
    _ = val_main_v48 (F := Ideal) x₀ x₁ x₂ x₃ :=
        (Cert.ReferenceIdeal.Stages.combineClamped_eq _ _ _ _ _ _).symm

theorem after1_src : W4 m ρ c (Proc.devRef .tc main_v1) = val_main_v1 (F := Ideal) x₁ :=
  (W4_of_ne m ρ c main_v1 (by decide)).trans (mid1_src m ρ c)
theorem after1_dst : W4 m ρ c (Proc.devRef .tc main_v3) = val_main_v3 (F := Ideal) x₁ :=
  (W4_of_ne m ρ c main_v3 (by decide)).trans (mid1_dst m ρ c)
theorem after1_edgeWeight : W4 m ρ c (Proc.devRef .tc main_v25) = val_main_v25 (F := Ideal) x₁ :=
  (W4_of_ne m ρ c main_v25 (by decide)).trans (mid1_edgeWeight m ρ c)
theorem after1_selfWeight : W4 m ρ c (Proc.devRef .tc main_v26) = val_main_v26 (F := Ideal) x₁ :=
  (W4_of_ne m ρ c main_v26 (by decide)).trans (mid1_selfWeight m ρ c)
theorem after1_arg4 : W4 m ρ c (Proc.devRef .tc main_arg4) = x₄ :=
  (W4_of_ne m ρ c main_arg4 (by decide)).trans (mid1_arg4 m ρ c)
theorem after1_arg5 : W4 m ρ c (Proc.devRef .tc main_arg5) = x₅ :=
  (W4_of_ne m ρ c main_arg5 (by decide)).trans (mid1_arg5 m ρ c)

end Cert.KernelIdeal.Boundaries

end
-- ==== Proof.DenseTiles64.lean ====
/-
  The second dense region, tile by tile. Its grid has 50 points; point `t` reads rows `2000 t … 2000 t + 1999` of the
  hidden features and the whole 128 × 64 weight, and writes the same rows of the result. What point `t` writes is that
  block of the whole-array dense stage (`Layers.dense64`) of the two arrays as the region finds them: row `p` of the
  tile is row `2000 t + p` of the array, and the weight's one block is the weight. The 50 blocks of rows cover the
  result, so after the region the result array IS the dense stage of the entry contents.
-/
import proofs.«133299_j56856777064619_1_alg».proof.Proof.Gen.KernelIdeal.Frame
import proofs.«133299_j56856777064619_1_alg».proof.Proof.Bodies
import proofs.«133299_j56856777064619_1_alg».proof.Proof.Layers
import Idealize.ShloMosaic.Lib.Pipeline.Value

set_option maxRecDepth 16384

noncomputable section

open scoped BigOperators

namespace Cert.KernelIdeal.DenseTiles64

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices of the three windows at point `t`: rows move with the point, columns do not move, the weight
    is one block. -/
theorem blockIndex : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the dense stage of the arrays as the region finds them. -/
theorem written_eq (c : Dev nD) (t : Fin cfg2.N) :
    (dat2 V c).flushed 2 t
      = ((cfg2.win 2).blk t).view.read (Elt Ideal) (Layers.dense64 (V c main_v43) (V c main_arg4)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x64) origin]
  obtain ⟨e0, e1, e2, e3, e4, e5⟩ := blockIndex t
  funext j
  obtain ⟨p, q, rfl⟩ : ∃ (p : Fin 2000) (q : Fin 64), j = ix2 p q := ⟨j 0, j 1, eq_ix2 j⟩
  show k2_pay1 (iblk2 V c 0 t) (iblk2 V c 1 t) (ix2 p q)
    = Layers.dense64 (V c main_v43) (V c main_arg4) (((cfg2.win 2).blk t).view.emb (ix2 p q))
  refine (Bodies.linear64_apply (iblk2 V c 0 t) (iblk2 V c 1 t) p q).trans ?_
  unfold Layers.dense64
  refine Finset.sum_congr rfl fun k _ => ?_
  have hx : iblk2 V c 0 t (ix2 p k)
      = V c main_v43 (ix2 ((((cfg2.win 2).blk t).view.emb (ix2 p q)) 0) k) := by
    show V c main_v43 (((cfg2.win 0).blk t).view.emb (ix2 p k)) = _
    refine congrArg (V c main_v43) (funext fun a => Fin.ext ?_)
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 128 + 1 * k.val = k.val
      omega
  have hw : iblk2 V c 1 t (ix2 k q)
      = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ =>
      show win2_1.index t (0 : Fin 2) * 128 + 1 * k.val = k.val
      omega
    | ⟨1, _⟩ =>
      show win2_1.index t (1 : Fin 2) * 64 + 1 * q.val = win2_2.index t (1 : Fin 2) * 64 + 1 * q.val
      omega
  rw [hx, hw]

/-- An index of the result is in point `t`'s block iff each coordinate is in the block's range on its axis. -/
theorem mem_block (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v44).slice (win2_2.rect t)).set ↔ _
  rw [View.set_slice_whole, Rect.mem_set_unit]
  exact Iff.rfl

/-- Every block of rows is some point's. -/
theorem block_onto : ∀ r : Fin 50, ∃ t : Fin cfg2.N, win2_2.index t (0 : Fin 2) = r.val ∧ win2_2.index t (1 : Fin 2) = 0 :=
  (by decide +kernel : ∀ r : Fin 50, ∃ t : Fin grid2.N, win2_2.index t (0 : Fin 2) = r.val ∧ win2_2.index t (1 : Fin 2) = 0)

/-- The blocks cover the result: row `n` is in the block of point `n / 2000`. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, q0, q1⟩ := block_onto ⟨(i 0).val / 2000, by omega⟩
  have q0' : win2_2.index t (0 : Fin 2) = (i 0).val / 2000 := q0
  refine ⟨t, flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 64 ≤ (i 1).val ∧ (i 1).val < win2_2.index t (1 : Fin 2) * 64 + 64
    omega

/-- After the region the result array is the dense stage of the feature and weight arrays as the region found them. -/
theorem result_eq (c : Dev nD) :
    (dat2 V c).arrAt 2 cfg2.N = Layers.dense64 (V c main_v43) (V c main_arg4) :=
  (dat2 V c).arrAt_eq_of_cover 2 _ (fun t _ => written_eq V c t) covered

end Cert.KernelIdeal.DenseTiles64

end
-- ==== Proof.CombineTiles64.lean ====
/-
  The second combine region, tile by tile. Its grid has 50 points; point `t` reads rows `2000 t … 2000 t + 1999` of
  the aggregated messages, of the transformed features and of the one-column self-loop weights, and the whole
  one-row bias, and writes the same rows of the result. What point `t` writes is that block of the whole-array
  combine stage (`Layers.combine`) of the four arrays as the region finds them: entry `(p, q)`
  of the tile is entry `(2000 t + p, q)` of the arrays, the self-loop weight is read in row `2000 t + p` of its one
  column and the bias in column `q` of its one row. The 50 blocks of rows cover the result.
-/
import proofs.«133299_j56856777064619_1_alg».proof.Proof.Gen.KernelIdeal.Frame
import proofs.«133299_j56856777064619_1_alg».proof.Proof.Bodies
import proofs.«133299_j56856777064619_1_alg».proof.Proof.Layers
import Idealize.ShloMosaic.Lib.Pipeline.Value

set_option maxRecDepth 16384

noncomputable section

open scoped BigOperators

namespace Cert.KernelIdeal.CombineTiles64

open Idealize.ShloMosaic Idealize.ShloMosaic.TcCoe Idealize.SL.Sem Idealize.ShloMosaic.ValueIdx
open Cert.KernelIdeal Cert.KernelIdeal.Gen
open Idealize.ShloMosaic.Pipeline (Dat)

variable (V : (c : Dev nD) → (b : Ref sig .tc) → Buf (Elt Ideal) ((c : Thread nD τ).loc b))

theorem origin : (![0, 0] : Fin 2 → Nat) = fun _ => 0 := funext fun a => by fin_cases a <;> rfl

/-- The block indices of the five windows at point `t`: rows move with the point, columns do not move, the bias is
    one block. -/
theorem blockIndex : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the combine stage of the arrays as the region finds them. -/
theorem written_eq (c : Dev nD) (t : Fin cfg3.N) :
    (dat3 V c).flushed 4 t
      = ((cfg3.win 4).blk t).view.read (Elt Ideal)
          (Layers.combine (V c main_v57) (V c main_v44) (V c main_v58) (V c main_v59)) := by
  show (cfg3.win 4).cut (grid3.coords t) ((dat3 V c).after 4 t) = _
  rw [after3_4]
  unfold out3_4
  rw [View.canon_unit_zero origin]
  simp only [View.ld_unit_zero (S := S2000x64) origin, View.ld_unit_zero (S := S2000x1) origin,
    View.ld_unit_zero (S := S1x64) origin]
  obtain ⟨e0, e1, e2, e3, e4, e5, e6, e7, e8, e9⟩ := blockIndex t
  funext j
  obtain ⟨p, q, rfl⟩ : ∃ (p : Fin 2000) (q : Fin 64), j = ix2 p q := ⟨j 0, j 1, eq_ix2 j⟩
  show k3_pay1 (iblk3 V c 0 t) (iblk3 V c 1 t) (iblk3 V c 2 t) (iblk3 V c 3 t) (ix2 p q)
    = Layers.combine (V c main_v57) (V c main_v44) (V c main_v58) (V c main_v59)
        (((cfg3.win 4).blk t).view.emb (ix2 p q))
  refine (Bodies.combine_apply (iblk3 V c 0 t) (iblk3 V c 1 t) (iblk3 V c 2 t) (iblk3 V c 3 t) p q).trans ?_
  unfold Layers.combine
  have ha : iblk3 V c 0 t (ix2 p q) = V c main_v57 (((cfg3.win 4).blk t).view.emb (ix2 p q)) := by
    show V c main_v57 (((cfg3.win 0).blk t).view.emb (ix2 p q)) = _
    refine congrArg (V c main_v57) (funext fun a => Fin.ext ?_)
    match a with
    | ⟨0, _⟩ =>
      show win3_0.index t (0 : Fin 2) * 2000 + 1 * p.val = win3_4.index t (0 : Fin 2) * 2000 + 1 * p.val
      omega
    | ⟨1, _⟩ =>
      show win3_0.index t (1 : Fin 2) * 64 + 1 * q.val = win3_4.index t (1 : Fin 2) * 64 + 1 * q.val
      omega
  have hh : iblk3 V c 1 t (ix2 p q) = V c main_v44 (((cfg3.win 4).blk t).view.emb (ix2 p q)) := by
    show V c main_v44 (((cfg3.win 1).blk t).view.emb (ix2 p q)) = _
    refine congrArg (V c main_v44) (funext fun a => Fin.ext ?_)
    match a with
    | ⟨0, _⟩ =>
      show win3_1.index t (0 : Fin 2) * 2000 + 1 * p.val = win3_4.index t (0 : Fin 2) * 2000 + 1 * p.val
      omega
    | ⟨1, _⟩ =>
      show win3_1.index t (1 : Fin 2) * 64 + 1 * q.val = win3_4.index t (1 : Fin 2) * 64 + 1 * q.val
      omega
  have hs : iblk3 V c 2 t (ix2 p (0 : Fin 1))
      = V c main_v58 (ix2 ((((cfg3.win 4).blk t).view.emb (ix2 p q)) 0) (0 : Fin 1)) := by
    show V c main_v58 (((cfg3.win 2).blk t).view.emb (ix2 p (0 : Fin 1))) = _
    refine congrArg (V c main_v58) (funext fun a => Fin.ext ?_)
    match a with
    | ⟨0, _⟩ =>
      show win3_2.index t (0 : Fin 2) * 2000 + 1 * p.val = win3_4.index t (0 : Fin 2) * 2000 + 1 * p.val
      omega
    | ⟨1, _⟩ =>
      show win3_2.index t (1 : Fin 2) * 1 + 1 * 0 = 0
      omega
  have hb : iblk3 V c 3 t (ix2 (0 : Fin 1) q)
      = V c main_v59 (ix2 (0 : Fin 1) ((((cfg3.win 4).blk t).view.emb (ix2 p q)) 1)) := by
    show V c main_v59 (((cfg3.win 3).blk t).view.emb (ix2 (0 : Fin 1) q)) = _
    refine congrArg (V c main_v59) (funext fun a => Fin.ext ?_)
    match a with
    | ⟨0, _⟩ =>
      show win3_3.index t (0 : Fin 2) * 1 + 1 * 0 = 0
      omega
    | ⟨1, _⟩ =>
      show win3_3.index t (1 : Fin 2) * 64 + 1 * q.val = win3_4.index t (1 : Fin 2) * 64 + 1 * q.val
      omega
  rw [ha, hh, hs, hb]

/-- An index of the result is in point `t`'s block iff each coordinate is in the block's range on its axis. -/
theorem mem_block (t : Fin cfg3.N) (i : S100000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v60).slice (win3_4.rect t)).set ↔ _
  rw [View.set_slice_whole, Rect.mem_set_unit]
  exact Iff.rfl

/-- Every block of rows is some point's. -/
theorem block_onto : ∀ r : Fin 50, ∃ t : Fin cfg3.N, win3_4.index t (0 : Fin 2) = r.val ∧ win3_4.index t (1 : Fin 2) = 0 :=
  (by decide +kernel : ∀ r : Fin 50, ∃ t : Fin grid3.N, win3_4.index t (0 : Fin 2) = r.val ∧ win3_4.index t (1 : Fin 2) = 0)

/-- The blocks cover the result: row `n` is in the block of point `n / 2000`. -/
theorem covered (i : S100000x64.Idx) :
    ∃ t : Fin cfg3.N, (cfg3.win 4).flush t = true ∧ i ∈ ((cfg3.win 4).blk t).view.set := by
  have hi0 : (i 0).val < 100000 := (i 0).isLt
  have hi1 : (i 1).val < 64 := (i 1).isLt
  obtain ⟨t, q0, q1⟩ := block_onto ⟨(i 0).val / 2000, by omega⟩
  have q0' : win3_4.index t (0 : Fin 2) = (i 0).val / 2000 := q0
  refine ⟨t, flush3_4 t, ?_⟩
  rw [mem_block]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 64 ≤ (i 1).val ∧ (i 1).val < win3_4.index t (1 : Fin 2) * 64 + 64
    omega

/-- After the region the result array is the combine stage of the four arrays as the region found them. -/
theorem result_eq (c : Dev nD) :
    (dat3 V c).arrAt 4 cfg3.N
      = Layers.combine (V c main_v57) (V c main_v44) (V c main_v58) (V c main_v59) :=
  (dat3 V c).arrAt_eq_of_cover 4 _ (fun t _ => written_eq V c t) covered

end Cert.KernelIdeal.CombineTiles64

end
-- ==== Proof.BoundaryLayer2.lean ====
/-
  The kernel's run, boundary by boundary, against the reference's stages: the second layer. The second dense region
  finds the first layer's result and the second weight and leaves the dense stage of them — the reference's second
  `dot_general`. The stretch after it gathers, scales and adds up as before, on the narrower rows, and reshapes the
  self-loop weights and the second bias. The second combine region leaves the combine stage of those four arrays,
  not clamped: the reference's result.
-/
import proofs.«133299_j56856777064619_1_alg».proof.Proof.BoundaryLayer1
import proofs.«133299_j56856777064619_1_alg».proof.Proof.DenseTiles64
import proofs.«133299_j56856777064619_1_alg».proof.Proof.CombineTiles64

set_option maxRecDepth 16384
-- the notations for the launch arrays mention the section's variables
set_option quotPrecheck false

noncomputable section

namespace Cert.KernelIdeal.Boundaries

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

local notation "x₀" => m ((c : Thread nD τ).loc main_arg0)
local notation "x₁" => m ((c : Thread nD τ).loc main_arg1)
local notation "x₂" => m ((c : Thread nD τ).loc main_arg2)
local notation "x₃" => m ((c : Thread nD τ).loc main_arg3)
local notation "x₄" => m ((c : Thread nD τ).loc main_arg4)
local notation "x₅" => m ((c : Thread nD τ).loc main_arg5)

/-! ## The second dense region -/

/-- After the second dense region its result buffer holds the reference's second `dot_general`. -/
theorem hidden2_eq : W5 m ρ c (Proc.devRef .tc main_v44) = val_main_v49 (F := Ideal) x₀ x₁ x₂ x₃ x₄ :=
  calc W5 m ρ c (Proc.devRef .tc main_v44)
    _ = (dat2 (V4 m ρ) c).arrAt 2 cfg2.N := W5_arr m ρ c 2
    _ = Layers.dense64 (W4 m ρ c (Proc.devRef .tc main_v43)) (W4 m ρ c (Proc.devRef .tc main_arg4)) :=
        DenseTiles64.result_eq (V4 m ρ) c
    _ = Layers.dense64 (val_main_v48 (F := Ideal) x₀ x₁ x₂ x₃) x₄ := by rw [layer1_eq, after1_arg4]
    _ = val_main_v49 (F := Ideal) x₀ x₁ x₂ x₃ x₄ := (Cert.ReferenceIdeal.Stages.dense64_eq _ _ _ _ _).symm

theorem after2_src : W5 m ρ c (Proc.devRef .tc main_v1) = val_main_v1 (F := Ideal) x₁ :=
  (W5_of_ne m ρ c main_v1 (by decide)).trans (after1_src m ρ c)
theorem after2_dst : W5 m ρ c (Proc.devRef .tc main_v3) = val_main_v3 (F := Ideal) x₁ :=
  (W5_of_ne m ρ c main_v3 (by decide)).trans (after1_dst m ρ c)
theorem after2_edgeWeight : W5 m ρ c (Proc.devRef .tc main_v25) = val_main_v25 (F := Ideal) x₁ :=
  (W5_of_ne m ρ c main_v25 (by decide)).trans (after1_edgeWeight m ρ c)
theorem after2_selfWeight : W5 m ρ c (Proc.devRef .tc main_v26) = val_main_v26 (F := Ideal) x₁ :=
  (W5_of_ne m ρ c main_v26 (by decide)).trans (after1_selfWeight m ρ c)
theorem after2_arg5 : W5 m ρ c (Proc.devRef .tc main_arg5) = x₅ :=
  (W5_of_ne m ρ c main_arg5 (by decide)).trans (after1_arg5 m ρ c)

/-! ## The stretch between the second dense and the second combine region -/

set_option maxHeartbeats 4000000 in
/-- The second layer's messages added up at each destination node. -/
theorem agg2_eq : W6 m ρ c (Proc.devRef .tc main_v57) = val_main_v62 (F := Ideal) x₀ x₁ x₂ x₃ x₄ := by
  show StableHlo.after hostOps3 (W5 m ρ c) (Proc.devRef .tc main_v57) = _
  after_results_simp
  rw [hidden2_eq m ρ c, after2_src m ρ c, after2_dst m ρ c, after2_edgeWeight m ρ c]
  rfl

theorem mid2_hidden2 : W6 m ρ c (Proc.devRef .tc main_v44) = val_main_v49 (F := Ideal) x₀ x₁ x₂ x₃ x₄ := by
  show StableHlo.after hostOps3 (W5 m ρ c) (Proc.devRef .tc main_v44) = _
  after_results_simp
  exact hidden2_eq m ρ c

/-- The self-loop weights as one column. -/
theorem mid2_selfColumn : W6 m ρ c (Proc.devRef .tc main_v58)
    = shapeCast S100000x1 (val_main_v26 (F := Ideal) x₁) shapeCasts_S100000_S100000x1 := by
  show StableHlo.after hostOps3 (W5 m ρ c) (Proc.devRef .tc main_v58) = _
  after_results_simp
  exact congrArg (fun v => shapeCast S100000x1 v shapeCasts_S100000_S100000x1) (after2_selfWeight m ρ c)

/-- The second bias as one row. -/
theorem mid2_biasRow : W6 m ρ c (Proc.devRef .tc main_v59) = shapeCast S1x64 x₅ shapeCasts_S64_S1x64 := by
  show StableHlo.after hostOps3 (W5 m ρ c) (Proc.devRef .tc main_v59) = _
  after_results_simp
  exact congrArg (fun v => shapeCast S1x64 v shapeCasts_S64_S1x64) (after2_arg5 m ρ c)

/-! ## The second combine region -/

/-- After the last region the result buffer holds the reference's result. -/
theorem result_eq : W7 m ρ c (Proc.devRef .tc main_v60) = val_main_v69 (F := Ideal) x₀ x₁ x₂ x₃ x₄ x₅ :=
  calc W7 m ρ c (Proc.devRef .tc main_v60)
    _ = (dat3 (V6 m ρ) c).arrAt 4 cfg3.N := W7_arr m ρ c 4
    _ = Layers.combine (W6 m ρ c (Proc.devRef .tc main_v57)) (W6 m ρ c (Proc.devRef .tc main_v44))
          (W6 m ρ c (Proc.devRef .tc main_v58)) (W6 m ρ c (Proc.devRef .tc main_v59)) :=
        CombineTiles64.result_eq (V6 m ρ) c
    _ = Layers.combine (val_main_v62 (F := Ideal) x₀ x₁ x₂ x₃ x₄) (val_main_v49 (F := Ideal) x₀ x₁ x₂ x₃ x₄)
          (shapeCast S100000x1 (val_main_v26 (F := Ideal) x₁) shapeCasts_S100000_S100000x1)
          (shapeCast S1x64 x₅ shapeCasts_S64_S1x64) := by
        rw [agg2_eq, mid2_hidden2, mid2_selfColumn, mid2_biasRow]
    _ = val_main_v69 (F := Ideal) x₀ x₁ x₂ x₃ x₄ x₅ :=
        (Cert.ReferenceIdeal.Stages.combine_eq _ _ _ _ _ _ _ _).symm

end Cert.KernelIdeal.Boundaries

end
-- ==== Proof.lean ====
/-
  A two-layer graph convolution over 100000 nodes and 1600000 edges, computed by a program of four tiled kernel
  regions among host operations, against the same network written with plain array operations.

  Both programs normalise the graph the same way on the host: the in-degree of every node plus its self-loop, the
  inverse square root of that, multiplied at the two ends of each edge (the edge weights) and squared (the self-loop
  weights). A layer is then `h = x · W`; the messages `h[src] * edge weight` added up at each destination node; and
  `agg + h * self-loop weight + b`, clamped at zero after the first layer only. The kernel computes `x · W` and the
  final combination in regions tiled over blocks of 2000 nodes — rounding the product's operands to bf16, which is
  the identity on the extended reals, and repeating the self-loop weights and the bias inside the tile — and leaves
  the gather and the scatter to the same host operations the reference uses.

  So at the ideal values the two results are one function of the arguments, stage by stage: each dense region leaves
  the matrix product the reference's `dot_general` computes (the same sum over the contracted axis, tile by tile),
  each combine region the reference's multiply and adds (and relu) read index by index, and between regions both
  programs apply the same operations to equal arrays. No law of arithmetic beyond that is used, and the
  precondition is never opened. The three frames are the generated ones (the reference's is its run with the result
  dropped), and the idealization rewrote nothing, so its claim is `True`.
-/
import proofs.«133299_j56856777064619_1_alg».proof.Defs
import proofs.«133299_j56856777064619_1_alg».proof.Proof.Gen.Kernel
import proofs.«133299_j56856777064619_1_alg».proof.Proof.Gen.Kernel.Skeleton
import proofs.«133299_j56856777064619_1_alg».proof.Proof.Gen.Kernel.Launch
import proofs.«133299_j56856777064619_1_alg».proof.Proof.Gen.Kernel.Points
import proofs.«133299_j56856777064619_1_alg».proof.Proof.Gen.Kernel.Frame
import proofs.«133299_j56856777064619_1_alg».proof.Proof.Gen.KernelIdeal
import proofs.«133299_j56856777064619_1_alg».proof.Proof.Gen.KernelIdeal.Skeleton
import proofs.«133299_j56856777064619_1_alg».proof.Proof.Gen.KernelIdeal.Launch
import proofs.«133299_j56856777064619_1_alg».proof.Proof.Gen.KernelIdeal.Points
import proofs.«133299_j56856777064619_1_alg».proof.Proof.Gen.KernelIdeal.Frame
import proofs.«133299_j56856777064619_1_alg».proof.Proof.Gen.ReferenceIdeal
import proofs.«133299_j56856777064619_1_alg».proof.Proof.Gen.ReferenceIdeal.Run
import proofs.«133299_j56856777064619_1_alg».proof.Proof.Gen.ReferenceIdeal.Read
import proofs.«133299_j56856777064619_1_alg».proof.Proof.Gen.Pre_finite_inputs
import proofs.«133299_j56856777064619_1_alg».proof.Proof.KernelRun
import proofs.«133299_j56856777064619_1_alg».proof.Proof.BoundaryLayer2
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  refine ⟨fun m ρ _ => Cert.Kernel.Gen.frame m ρ, fun m ρ _ => Cert.KernelIdeal.Gen.frame m ρ, ?_, trivial, ?_⟩
  · -- the reference's frame: its run, the result dropped
    exact fun m ρ _ => (θ_run Cert.ReferenceIdeal.defs _ _).mono (fun _ h c => (h c).2)
      (Cert.ReferenceIdeal.Value.run (F := Ideal) m ρ)
  · -- both programs end at the reference's last stage of the arguments
    intro m ρ m' ρ' _ hagree
    refine ⟨fun c => Cert.ReferenceIdeal.Read.val_main_v69 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)), ?_, ?_⟩
    · exact (θ_run Cert.KernelIdeal.defs _ _).mono
        (fun _ h c => ⟨(h c).1.trans (Cert.KernelIdeal.Boundaries.result_eq m ρ c), (h c).2⟩)
        (Cert.KernelIdeal.KernelRun.run (F := Ideal) m ρ)
    · refine (θ_run Cert.ReferenceIdeal.defs _ _).mono (fun _ h c => ⟨(h c).1.trans ?_, (h c).2⟩)
        (Cert.ReferenceIdeal.Value.run (F := Ideal) m' ρ')
      rw [Cert.ReferenceIdeal.Read.val_main_v69_eq, (hagree c).1, (hagree c).2.1, (hagree c).2.2.1,
        (hagree c).2.2.2.1, (hagree c).2.2.2.2.1, (hagree c).2.2.2.2.2]⟩

end Cert.Proof

end
